-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x2 .f32) (main_arg5 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x128 : Shape := ⟨2, ![10000, 128]⟩
abbrev S10000x16 : Shape := ⟨2, ![10000, 16]⟩
abbrev S3300000x16 : Shape := ⟨2, ![3300000, 16]⟩
abbrev S1x16 : Shape := ⟨2, ![1, 16]⟩
abbrev S100000x2 : Shape := ⟨2, ![100000, 2]⟩
abbrev S20000x16 : Shape := ⟨2, ![20000, 16]⟩
abbrev S20000x2 : Shape := ⟨2, ![20000, 2]⟩
abbrev S3300000x2 : Shape := ⟨2, ![3300000, 2]⟩
abbrev S1x2 : Shape := ⟨2, ![1, 2]⟩
abbrev S100000x1 : Shape := ⟨2, ![100000, 1]⟩

abbrev nBuf : Space → Nat
  | .hbm => 104
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x2, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x2, .f32⟩
  | .hbm, ⟨79, _⟩ => ⟨S3300000x1, .f32⟩
  | .hbm, ⟨80, _⟩ => ⟨S3300000x2, .f32⟩
  | .hbm, ⟨81, _⟩ => ⟨S3300000x2, .f32⟩
  | .hbm, ⟨82, _⟩ => ⟨S_, .f32⟩
  | .hbm, ⟨83, _⟩ => ⟨S100000x2, .f32⟩
  | .hbm, ⟨84, _⟩ => ⟨S3300000x1, .i32⟩
  | .hbm, ⟨85, _⟩ => ⟨S100000x2, .f32⟩
  | .hbm, ⟨86, _⟩ => ⟨S1x2, .f32⟩
  | .hbm, ⟨87, _⟩ => ⟨S100000x2, .f32⟩
  | .hbm, ⟨88, _⟩ => ⟨S100000x2, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x2, .f32⟩
  | .hbm, ⟨96, _⟩ => ⟨S100000x2, .f32⟩
  | .hbm, ⟨97, _⟩ => ⟨S100000x2, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x2, .f32⟩
  | .hbm, ⟨103, _⟩ => ⟨S100000x2, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S20000x16, .f32⟩
  | .local _ .vmem, ⟨6, _⟩ => ⟨S20000x16, .f32⟩
  | .local _ .vmem, ⟨7, _⟩ => ⟨S16x2, .f32⟩
  | .local _ .vmem, ⟨8, _⟩ => ⟨S20000x2, .f32⟩
  | .local _ .vmem, ⟨9, _⟩ => ⟨S20000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S20000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S20000x16_S20000x16_0_0 : ∀ a, (![0, 0] : Fin 2 → Nat) a + S20000x16.size a ≤ S20000x16.size a
  h_S20000x16 : 0 < S20000x16.numel
  shapeCasts_S20000x16_S20000x16 : S20000x16.ShapeCasts S20000x16
  inb_S16x2_S16x2_0_0 : ∀ a, (![0, 0] : Fin 2 → Nat) a + S16x2.size a ≤ S16x2.size a
  h_S16x2 : 0 < S16x2.numel
  inb_S20000x2_S20000x2_0_0 : ∀ a, (![0, 0] : Fin 2 → Nat) a + S20000x2.size a ≤ S20000x2.size a
  h_S20000x2 : 0 < S20000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x16_S10000x16_1_0_0_1_n_n_wf : DotDims.WF S10000x128 S128x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S20000x16_S16x2_S20000x2_1_0_0_1_n_n_wf : DotDims.WF S20000x16 S16x2 S20000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x16.size a ≤ S100000x16.size a
  hwx1_0 : ∀ i : grid1.Coords, EltTy.bits .f32 = 32 ∨ (Rect.block (s := S100000x16) S20000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x2.size a ≤ S16x2.size a
  hwx1_1 : ∀ i : grid1.Coords, EltTy.bits .f32 = 32 ∨ (Rect.block (s := S16x2) S16x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x2.size a ≤ S100000x2.size a
  hwx1_2 : ∀ i : grid1.Coords, EltTy.bits .f32 = 32 ∨ (Rect.block (s := S100000x2) S20000x2.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S20000x16_S16x2_S20000x2_1_0_0_1_n_n : DotDims S20000x16 S16x2 S20000x2 where
  lhsContracting := [1]
  rhsContracting := [0]
  lhsNonContracting := [0]
  rhsNonContracting := [1]
  lhsBatch := []
  rhsBatch := []
  wf := dot_S20000x16_S16x2_S20000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S20000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S20000x2.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x2 : Shape := ⟨2, ![100000, 2]⟩
abbrev S3300000x2 : Shape := ⟨2, ![3300000, 2]⟩
abbrev S1x2 : Shape := ⟨2, ![1, 2]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x2, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x2, .f32⟩
  | .hbm, ⟨79, _⟩ => ⟨S3300000x1, .f32⟩
  | .hbm, ⟨80, _⟩ => ⟨S3300000x2, .f32⟩
  | .hbm, ⟨81, _⟩ => ⟨S3300000x2, .f32⟩
  | .hbm, ⟨82, _⟩ => ⟨S_, .f32⟩
  | .hbm, ⟨83, _⟩ => ⟨S100000x2, .f32⟩
  | .hbm, ⟨84, _⟩ => ⟨S3300000x1, .i32⟩
  | .hbm, ⟨85, _⟩ => ⟨S100000x2, .f32⟩
  | .hbm, ⟨86, _⟩ => ⟨S1x2, .f32⟩
  | .hbm, ⟨87, _⟩ => ⟨S100000x2, .f32⟩
  | .hbm, ⟨88, _⟩ => ⟨S100000x2, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x2, .f32⟩
  | .hbm, ⟨96, _⟩ => ⟨S100000x2, .f32⟩
  | .hbm, ⟨97, _⟩ => ⟨S100000x2, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x2, .f32⟩
  | .hbm, ⟨103, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.KernelRun.lean ====
/-
  The idealized kernel program's run with its RESULT kept.

  @main is seven stretches of host operations around two kernel regions. The buffer contents at the boundaries are a fold
  from the launch memory: a stretch applies its operations in order, a region leaves its three arrays at what its write-backs
  leave and every other buffer as it found it. The run ends with every unscoped buffer at the last boundary's contents; read
  at the result buffer that is the program's value, read at an argument it is the argument as launched.
-/
import proofs.«143414_j77120432767032_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the six argument arrays as launched. -/
theorem run : θ_run defs (onTc (τ := τ) (main (F := F))) ⟨m, fun _ => 0, ρ⟩ (fun r => ∀ c : Dev nD,
      r.2.mem ((c.tc : Thread nD τ).loc main_v65) = W9 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v65 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Whole

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.Region0.lean ====
/-
  What the first kernel region leaves in its output array, on the extended reals.

  The region runs over ten grid points. At point `t` it stages rows `10000 t … 10000 t + 9999` of the left operand
  (a 100000 × 128 array) and the whole right operand (128 × 16), multiplies the two staged blocks into a zero
  accumulator, and writes the 10000 × 16 product back to rows `10000 t … 10000 t + 9999` of the output array. A row of
  a matrix product depends on the same row of the left operand only, so the block written at `t` is the same rows of
  the product of the WHOLE operands; the ten row ranges tile the 100000 rows, so the array ends holding that whole
  product. On the extended reals a change of float format is the identity, and a product accumulated from zero is the
  plain sum over the contracted index: no finiteness is used.
-/
import proofs.«143414_j77120432767032_1_alg».proof.Proof.Gen.KernelIdeal.Frame
import proofs.«143414_j77120432767032_1_alg».proof.Proof.LibDense
import Idealize.ShloMosaic.Lib.Pipeline.Value

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)
open Cert.Dense

variable (V : (c : Dev nD) → (b : Ref sig .tc) → Buf (Elt Ideal) ((c : Thread nD τ).loc b))

theorem origin : (![0, 0] : Fin 2 → Nat) = fun _ => 0 := funext fun a => by fin_cases a <;> rfl

/-- The body's one stored value is the matrix product of its two loaded blocks. -/
theorem payload_eq_mm (x0 : Vec Ideal S10000x128 .f32) (x1 : Vec Ideal S128x16 .f32) :
    k0_pay1 x0 x1 = mm x0 x1 := by
  unfold k0_pay1
  exact matmul_zero_eq_mm dot_S10000x128_S128x16_S10000x16_1_0_0_1_n_n rfl rfl rfl rfl rfl rfl none _ _

/-- Rows `r0 …` of a product: if `X'` holds rows `r0 + p` of `X` and `W'` is `W`, then entry `(p, q)` of `X' W'` is entry
    `(r0 + p, q)` of `X W`. -/
theorem mm_rowBlock (X : Mat 100000 128) (W : Mat 128 16) (X' : Mat 10000 128) (W' : Mat 128 16) (r0 : ℕ)
    (hX : ∀ (p : Fin 10000) (k : Fin 128) (i : (⟨2, ![100000, 128]⟩ : Shape).Idx),
      (i 0).val = r0 + p.val → (i 1).val = k.val → X' (ix2 p k) = X i)
    (hW : ∀ i, W' i = W i)
    (j : (⟨2, ![10000, 16]⟩ : Shape).Idx) (i : (⟨2, ![100000, 16]⟩ : Shape).Idx)
    (h0 : (i 0).val = r0 + (j 0).val) (h1 : (i 1).val = (j 1).val) :
    mm X' W' j = mm X W i := by
  obtain ⟨p, q, rfl⟩ : ∃ (p : Fin 10000) (q : Fin 16), j = ix2 p q := ⟨j 0, j 1, eq_ix2 j⟩
  obtain ⟨p', q', rfl⟩ : ∃ (p' : Fin 100000) (q' : Fin 16), i = ix2 p' q' := ⟨i 0, i 1, eq_ix2 i⟩
  have hq : q' = q := Fin.ext h1
  subst hq
  rw [mm_apply, mm_apply]
  refine Finset.sum_congr rfl fun k _ => ?_
  rw [hX p k (ix2 p' k) h0 rfl, hW]

/-- The windows' index maps over the grid: the left operand's and the output's blocks are at row block `t`, the right
    operand's block is the whole array. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the whole arrays as the region finds them. -/
theorem flushed_eq (c : Dev nD) (t : Fin cfg0.N) :
    (dat0 V c).flushed 2 t
      = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x16) origin]
  rw [payload_eq_mm]
  obtain ⟨e00, e01, e10, e11, e20, e21⟩ := index_facts t
  funext j
  show mm (iblk0 V c 0 t) (iblk0 V c 1 t) j = mm (V c main_arg0) (V c main_arg2) (((cfg0.win 2).blk t).view.emb j)
  refine mm_rowBlock (V c main_arg0) (V c main_arg2) (iblk0 V c 0 t) (iblk0 V c 1 t) (t.val * 10000) ?_ ?_ j _ ?_ ?_
  · intro p k i hi0 hi1
    show V c main_arg0 (((cfg0.win 0).blk t).view.emb (ix2 p k)) = V c main_arg0 i
    refine congrArg (V c main_arg0) (funext fun a => Fin.ext ?_)
    match a with
    | ⟨0, _⟩ => show win0_0.index t (0 : Fin 2) * 10000 + 1 * p.val = (i 0).val; omega
    | ⟨1, _⟩ => show win0_0.index t (1 : Fin 2) * 128 + 1 * k.val = (i 1).val; omega
  · intro i
    show V c main_arg2 (((cfg0.win 1).blk t).view.emb i) = V c main_arg2 i
    refine congrArg (V c main_arg2) (funext fun a => Fin.ext ?_)
    match a with
    | ⟨0, _⟩ => show win0_1.index t (0 : Fin 2) * 128 + 1 * (i 0).val = (i 0).val; omega
    | ⟨1, _⟩ => show win0_1.index t (1 : Fin 2) * 16 + 1 * (i 1).val = (i 1).val; omega
  · show win0_2.index t (0 : Fin 2) * 10000 + 1 * (j 0).val = t.val * 10000 + (j 0).val; omega
  · show win0_2.index t (1 : Fin 2) * 16 + 1 * (j 1).val = (j 1).val; omega

/-- An index of the output array is in point `t`'s block iff each coordinate is in the block's range on its axis. -/
theorem mem_block (t : Fin cfg0.N) (i : S100000x16.Idx) :
    i ∈ ((cfg0.win 2).blk t).view.set ↔ ∀ a : Fin 2, win0_2.index t a * S10000x16.size a ≤ (i a).val
      ∧ (i a).val < win0_2.index t a * S10000x16.size a + S10000x16.size a := by
  show i ∈ ((View.whole main_v30).slice (win0_2.rect t)).set ↔ _
  rw [View.set_slice_whole, Rect.mem_set_unit]
  exact Iff.rfl

/-- Every row is in some point's block: row `r` in block `r / 10000`. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : grid0.N = 10 := N_0
  let t : Fin cfg0.N := ⟨(i 0).val / 10000, by show (i 0).val / 10000 < grid0.N; omega⟩
  obtain ⟨e00, e01, e10, e11, e20, e21⟩ := index_facts t
  have ht : t.val = (i 0).val / 10000 := rfl
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 16 ≤ (i 1).val ∧ (i 1).val < win0_2.index t (1 : Fin 2) * 16 + 16
    omega

/-- After the region its output array holds the product of the whole operands as the region found them: the host's
    plain dot product of the two arrays. -/
theorem array_eq (c : Dev nD) :
    (dat0 V c).arrAt 2 cfg0.N
      = Host.dotGeneral (F := Ideal) (φ₁ := .f32) (φ₂ := .f32) (DotDims.plain 100000 128 16) none (V c main_arg0) (V c main_arg2) := by
  rw [hostDot_eq_mm (DotDims.plain 100000 128 16) rfl rfl rfl rfl rfl rfl]
  exact (dat0 V c).arrAt_eq_of_cover 2 (mm (V c main_arg0) (V c main_arg2)) (fun t _ => flushed_eq V c t) covered

end Cert.KernelIdeal.Layer1

end
-- ==== Proof.Region1.lean ====
/-
  What the second kernel region leaves in its output array, on the extended reals.

  The region runs over five grid points. At point `t` it stages rows `20000 t … 20000 t + 19999` of the left operand
  (a 100000 × 16 array) and the whole right operand (16 × 2), multiplies the two staged blocks into a zero accumulator
  (the left block first re-cast to its own shape, which changes nothing), and writes the 20000 × 2 product back to rows
  `20000 t … 20000 t + 19999` of the output array. A row of a matrix product depends on the same row of the left
  operand only, so the block written at `t` is the same rows of the product of the WHOLE operands; the five row ranges
  tile the 100000 rows, so the array ends holding that whole product. No finiteness is used.
-/
import proofs.«143414_j77120432767032_1_alg».proof.Proof.Gen.KernelIdeal.Frame
import proofs.«143414_j77120432767032_1_alg».proof.Proof.LibDense
import Idealize.ShloMosaic.Lib.Pipeline.Value

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.ValueIdx
open Idealize.ShloMosaic.Pipeline (Dat)
open Cert.Dense

variable (V : (c : Dev nD) → (b : Ref sig .tc) → Buf (Elt Ideal) ((c : Thread nD τ).loc b))

theorem origin : (![0, 0] : Fin 2 → Nat) = fun _ => 0 := funext fun a => by fin_cases a <;> rfl

/-- The body's one stored value is the matrix product of its two loaded blocks (the cast of the left block to its own shape is the identity). -/
theorem payload_eq_mm (x0 : Vec Ideal S20000x16 .f32) (x1 : Vec Ideal S16x2 .f32) :
    k1_pay1 x0 x1 = mm x0 x1 := by
  unfold k1_pay1
  rw [shapeCast_self]
  exact matmul_zero_eq_mm dot_S20000x16_S16x2_S20000x2_1_0_0_1_n_n rfl rfl rfl rfl rfl rfl none _ _

/-- Rows `r0 …` of a product: if `X'` holds rows `r0 + p` of `X` and `W'` is `W`, then entry `(p, q)` of `X' W'` is entry
    `(r0 + p, q)` of `X W`. -/
theorem mm_rowBlock (X : Mat 100000 16) (W : Mat 16 2) (X' : Mat 20000 16) (W' : Mat 16 2) (r0 : ℕ)
    (hX : ∀ (p : Fin 20000) (k : Fin 16) (i : (⟨2, ![100000, 16]⟩ : Shape).Idx),
      (i 0).val = r0 + p.val → (i 1).val = k.val → X' (ix2 p k) = X i)
    (hW : ∀ i, W' i = W i)
    (j : (⟨2, ![20000, 2]⟩ : Shape).Idx) (i : (⟨2, ![100000, 2]⟩ : Shape).Idx)
    (h0 : (i 0).val = r0 + (j 0).val) (h1 : (i 1).val = (j 1).val) :
    mm X' W' j = mm X W i := by
  obtain ⟨p, q, rfl⟩ : ∃ (p : Fin 20000) (q : Fin 2), j = ix2 p q := ⟨j 0, j 1, eq_ix2 j⟩
  obtain ⟨p', q', rfl⟩ : ∃ (p' : Fin 100000) (q' : Fin 2), i = ix2 p' q' := ⟨i 0, i 1, eq_ix2 i⟩
  have hq : q' = q := Fin.ext h1
  subst hq
  rw [mm_apply, mm_apply]
  refine Finset.sum_congr rfl fun k _ => ?_
  rw [hX p k (ix2 p' k) h0 rfl, hW]

/-- The windows' index maps over the grid: the left operand's and the output's blocks are at row block `t`, the right
    operand's block is the whole array. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the whole arrays as the region finds them. -/
theorem flushed_eq (c : Dev nD) (t : Fin cfg1.N) :
    (dat1 V c).flushed 2 t
      = ((cfg1.win 2).blk t).view.read (Elt Ideal) (mm (V c main_v47) (V c main_arg4)) := by
  show (cfg1.win 2).cut (grid1.coords t) ((dat1 V c).after 2 t) = _
  rw [after1_2]
  unfold out1_2
  rw [View.canon_unit_zero origin]
  simp only [View.ld_unit_zero (S := S20000x16) origin, View.ld_unit_zero (S := S16x2) origin]
  rw [payload_eq_mm]
  obtain ⟨e00, e01, e10, e11, e20, e21⟩ := index_facts t
  funext j
  show mm (iblk1 V c 0 t) (iblk1 V c 1 t) j = mm (V c main_v47) (V c main_arg4) (((cfg1.win 2).blk t).view.emb j)
  refine mm_rowBlock (V c main_v47) (V c main_arg4) (iblk1 V c 0 t) (iblk1 V c 1 t) (t.val * 20000) ?_ ?_ j _ ?_ ?_
  · intro p k i hi0 hi1
    show V c main_v47 (((cfg1.win 0).blk t).view.emb (ix2 p k)) = V c main_v47 i
    refine congrArg (V c main_v47) (funext fun a => Fin.ext ?_)
    match a with
    | ⟨0, _⟩ => show win1_0.index t (0 : Fin 2) * 20000 + 1 * p.val = (i 0).val; omega
    | ⟨1, _⟩ => show win1_0.index t (1 : Fin 2) * 16 + 1 * k.val = (i 1).val; omega
  · intro i
    show V c main_arg4 (((cfg1.win 1).blk t).view.emb i) = V c main_arg4 i
    refine congrArg (V c main_arg4) (funext fun a => Fin.ext ?_)
    match a with
    | ⟨0, _⟩ => show win1_1.index t (0 : Fin 2) * 16 + 1 * (i 0).val = (i 0).val; omega
    | ⟨1, _⟩ => show win1_1.index t (1 : Fin 2) * 2 + 1 * (i 1).val = (i 1).val; omega
  · show win1_2.index t (0 : Fin 2) * 20000 + 1 * (j 0).val = t.val * 20000 + (j 0).val; omega
  · show win1_2.index t (1 : Fin 2) * 2 + 1 * (j 1).val = (j 1).val; omega

/-- An index of the output array is in point `t`'s block iff each coordinate is in the block's range on its axis. -/
theorem mem_block (t : Fin cfg1.N) (i : S100000x2.Idx) :
    i ∈ ((cfg1.win 2).blk t).view.set ↔ ∀ a : Fin 2, win1_2.index t a * S20000x2.size a ≤ (i a).val
      ∧ (i a).val < win1_2.index t a * S20000x2.size a + S20000x2.size a := by
  show i ∈ ((View.whole main_v48).slice (win1_2.rect t)).set ↔ _
  rw [View.set_slice_whole, Rect.mem_set_unit]
  exact Iff.rfl

/-- Every row is in some point's block: row `r` in block `r / 20000`. -/
theorem covered (i : S100000x2.Idx) :
    ∃ t : Fin cfg1.N, (cfg1.win 2).flush t = true ∧ i ∈ ((cfg1.win 2).blk t).view.set := by
  have hi0 : (i 0).val < 100000 := (i 0).isLt
  have hi1 : (i 1).val < 2 := (i 1).isLt
  have hN : grid1.N = 5 := N_1
  let t : Fin cfg1.N := ⟨(i 0).val / 20000, by show (i 0).val / 20000 < grid1.N; omega⟩
  obtain ⟨e00, e01, e10, e11, e20, e21⟩ := index_facts t
  have ht : t.val = (i 0).val / 20000 := rfl
  refine ⟨t, flush1_2 t, ?_⟩
  rw [mem_block]
  intro a
  match a with
  | ⟨0, _⟩ =>
    show win1_2.index t (0 : Fin 2) * 20000 ≤ (i 0).val ∧ (i 0).val < win1_2.index t (0 : Fin 2) * 20000 + 20000
    omega
  | ⟨1, _⟩ =>
    show win1_2.index t (1 : Fin 2) * 2 ≤ (i 1).val ∧ (i 1).val < win1_2.index t (1 : Fin 2) * 2 + 2
    omega

/-- After the region its output array holds the product of the whole operands as the region found them: the host's
    plain dot product of the two arrays. -/
theorem array_eq (c : Dev nD) :
    (dat1 V c).arrAt 2 cfg1.N
      = Host.dotGeneral (F := Ideal) (φ₁ := .f32) (φ₂ := .f32) (DotDims.plain 100000 16 2) none (V c main_v47) (V c main_arg4) := by
  rw [hostDot_eq_mm (DotDims.plain 100000 16 2) rfl rfl rfl rfl rfl rfl]
  exact (dat1 V c).arrAt_eq_of_cover 2 (mm (V c main_v47) (V c main_arg4)) (fun t _ => flushed_eq V c t) covered

end Cert.KernelIdeal.Layer2

end
-- ==== Proof.KernelValue.lean ====
/-
  The idealized kernel program's value is the reference's.

  A kernel region whose output array ends holding the plain product of its two input arrays, and which leaves every other
  buffer as it found it, changes the buffer contents exactly as the host operation "plain dot product of those two buffers,
  written to the output buffer" does. So the contents at the program's last boundary are what a host-only program leaves:
  the seven stretches of host operations in order, with one dot product in place of each region. That host-only program is,
  operation for operation, the reference program (same operations, same constants, same buffers' roles); evaluated at the
  result buffer from launch contents that agree with the reference's on the six arguments, the two composed terms coincide.
-/
import proofs.«143414_j77120432767032_1_alg».proof.Proof.Gen.KernelIdeal.Frame
import proofs.«143414_j77120432767032_1_alg».proof.Proof.Region0
import proofs.«143414_j77120432767032_1_alg».proof.Proof.Region1
import proofs.«143414_j77120432767032_1_alg».proof.Proof.RefRun

set_option maxRecDepth 65536

noncomputable section

namespace Cert.KernelIdeal.Whole

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The first layer's product as a host operation: the plain dot product of the features and the first weight matrix,
    written to the first region's output buffer. -/
abbrev prod1 : HloOp τ sig (Elt Ideal) :=
  StableHlo.binary main_arg0 main_arg2 main_v30
    ((fun l r => Host.dotGeneral (F := Ideal) (φ₁ := .f32) (φ₂ := .f32) (DotDims.plain 100000 128 16) none l r) :
      (⟨S100000x128, .f32⟩ : BufTy).Contents (Elt Ideal) → (⟨S128x16, .f32⟩ : BufTy).Contents (Elt Ideal)
        → (⟨S100000x16, .f32⟩ : BufTy).Contents (Elt Ideal))

/-- The second layer's product as a host operation: the plain dot product of the hidden layer and the second weight
    matrix, written to the second region's output buffer. -/
abbrev prod2 : HloOp τ sig (Elt Ideal) :=
  StableHlo.binary main_v47 main_arg4 main_v48
    ((fun l r => Host.dotGeneral (F := Ideal) (φ₁ := .f32) (φ₂ := .f32) (DotDims.plain 100000 16 2) none l r) :
      (⟨S100000x16, .f32⟩ : BufTy).Contents (Elt Ideal) → (⟨S16x2, .f32⟩ : BufTy).Contents (Elt Ideal)
        → (⟨S100000x2, .f32⟩ : BufTy).Contents (Elt Ideal))

/-- The first region leaves the buffers as the first product, run as a host operation from the region's entry contents,
    would: its output array at the product, its two input arrays and every other buffer unchanged. -/
theorem region0_as_host (c : Dev nD) : W4 m ρ c = prod1.result (W3 m ρ c) := by
  funext b
  by_cases h : ∃ w, Proc.devRef .tc (Pipeline.arrRef spec0 w) = b
  · obtain ⟨w, rfl⟩ := h
    rw [W4_arr]
    match w with
    | ⟨0, _⟩ =>
      exact (((dat0 (V3 m ρ) c).arrAt_in 0 rfl _).trans (A_eq0 (V3 m ρ) c 0)).trans
        (StableHlo.binary_result_ne main_arg0 main_arg2 main_v30 _ _ _ _ (W3 m ρ c) (r := main_arg0) (by decide)).symm
    | ⟨1, _⟩ =>
      exact (((dat0 (V3 m ρ) c).arrAt_in 1 rfl _).trans (A_eq0 (V3 m ρ) c 1)).trans
        (StableHlo.binary_result_ne main_arg0 main_arg2 main_v30 _ _ _ _ (W3 m ρ c) (r := main_arg2) (by decide)).symm
    | ⟨2, _⟩ =>
      exact (Layer1.array_eq (V3 m ρ) c).trans
        (StableHlo.binary_result main_arg0 main_arg2 main_v30 _ _ _ _ (W3 m ρ c)).symm
    | ⟨_ + 3, hn⟩ => exact absurd hn (Nat.not_lt.2 (Nat.le_add_left _ _))
  · have hb : b ∉ (prod1 : HloOp τ sig (Elt Ideal)).writes := by
      show b ∉ ({Proc.devRef .tc main_v30} : Finset (DevRef τ sig))
      rw [Finset.mem_singleton]
      rintro rfl
      exact h ⟨2, rfl⟩
    rw [HloOp.result_of_not_mem _ _ hb]
    unfold W4 Pipeline.withArrays
    exact dif_neg h

/-- The second region likewise leaves the buffers as the second product, run as a host operation, would. -/
theorem region1_as_host (c : Dev nD) : W7 m ρ c = prod2.result (W6 m ρ c) := by
  funext b
  by_cases h : ∃ w, Proc.devRef .tc (Pipeline.arrRef spec1 w) = b
  · obtain ⟨w, rfl⟩ := h
    rw [W7_arr]
    match w with
    | ⟨0, _⟩ =>
      exact (((dat1 (V6 m ρ) c).arrAt_in 0 rfl _).trans (A_eq1 (V6 m ρ) c 0)).trans
        (StableHlo.binary_result_ne main_v47 main_arg4 main_v48 _ _ _ _ (W6 m ρ c) (r := main_v47) (by decide)).symm
    | ⟨1, _⟩ =>
      exact (((dat1 (V6 m ρ) c).arrAt_in 1 rfl _).trans (A_eq1 (V6 m ρ) c 1)).trans
        (StableHlo.binary_result_ne main_v47 main_arg4 main_v48 _ _ _ _ (W6 m ρ c) (r := main_arg4) (by decide)).symm
    | ⟨2, _⟩ =>
      exact (Layer2.array_eq (V6 m ρ) c).trans
        (StableHlo.binary_result main_v47 main_arg4 main_v48 _ _ _ _ (W6 m ρ c)).symm
    | ⟨_ + 3, hn⟩ => exact absurd hn (Nat.not_lt.2 (Nat.le_add_left _ _))
  · have hb : b ∉ (prod2 : HloOp τ sig (Elt Ideal)).writes := by
      show b ∉ ({Proc.devRef .tc main_v48} : Finset (DevRef τ sig))
      rw [Finset.mem_singleton]
      rintro rfl
      exact h ⟨2, rfl⟩
    rw [HloOp.result_of_not_mem _ _ hb]
    unfold W7 Pipeline.withArrays
    exact dif_neg h

/-- The contents at the last boundary are what the host-only program leaves from the launch contents. -/
theorem last_boundary (c : Dev nD) :
    W9 m ρ c = StableHlo.after hostOps2_1 (StableHlo.after hostOps2 (prod2.result (StableHlo.after hostOps1_1
      (StableHlo.after hostOps1 (prod1.result (StableHlo.after hostOps0_2 (StableHlo.after hostOps0_1
        (StableHlo.after hostOps0 (W0 m ρ c))))))))) := by
  show StableHlo.after hostOps2_1 (StableHlo.after hostOps2 (W7 m ρ c)) = _
  rw [region1_as_host]
  show StableHlo.after hostOps2_1 (StableHlo.after hostOps2 (prod2.result (StableHlo.after hostOps1_1
      (StableHlo.after hostOps1 (W4 m ρ c))))) = _
  rw [region0_as_host]

set_option maxHeartbeats 40000000 in
/-- The host-only program's result, from ANY contents `V0` that agree at the six argument buffers with contents `V0'` of the
    reference's buffers, is the reference's fold from `V0'`: the two programs apply the same operations in the same order. -/
theorem host_only_value (V0 : Valuation τ sig (Elt Ideal)) (V0' : Valuation Cert.ReferenceIdeal.τ Cert.ReferenceIdeal.sig (Elt Ideal))
    (a0 : V0 (Proc.devRef .tc main_arg0) = V0' (Proc.devRef .tc Cert.ReferenceIdeal.main_arg0))
    (a1 : V0 (Proc.devRef .tc main_arg1) = V0' (Proc.devRef .tc Cert.ReferenceIdeal.main_arg1))
    (a2 : V0 (Proc.devRef .tc main_arg2) = V0' (Proc.devRef .tc Cert.ReferenceIdeal.main_arg2))
    (a3 : V0 (Proc.devRef .tc main_arg3) = V0' (Proc.devRef .tc Cert.ReferenceIdeal.main_arg3))
    (a4 : V0 (Proc.devRef .tc main_arg4) = V0' (Proc.devRef .tc Cert.ReferenceIdeal.main_arg4))
    (a5 : V0 (Proc.devRef .tc main_arg5) = V0' (Proc.devRef .tc Cert.ReferenceIdeal.main_arg5)) :
    StableHlo.after hostOps2_1 (StableHlo.after hostOps2 (prod2.result (StableHlo.after hostOps1_1
      (StableHlo.after hostOps1 (prod1.result (StableHlo.after hostOps0_2 (StableHlo.after hostOps0_1
        (StableHlo.after hostOps0 V0))))))))
      (Proc.devRef .tc main_v65)
      = StableHlo.after (Cert.ReferenceIdeal.ValueP.ops (F := Ideal)) V0' (Proc.devRef .tc Cert.ReferenceIdeal.main_v65) := by
  dsimp only [hostOps0, hostOps0_1, hostOps0_2, hostOps1, hostOps1_1, hostOps2, hostOps2_1, prod1, prod2,
    Cert.ReferenceIdeal.ValueP.ops]
  after_results_simp
  -- the two index vectors (the edges' sources and targets, each with the node numbers appended for the self-loops) are a
  -- row of the edge list, flattened and concatenated with an iota: six operations of the edge list alone
  repeat (first
    | rw [StableHlo.nullary_result] | rw [StableHlo.unary_result] | rw [StableHlo.binary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide))
  rw [a0, a1, a2, a3, a4, a5]
  rfl

end Cert.KernelIdeal.Whole

end
-- ==== Proof.lean ====
/-
  A two-layer graph convolution whose two dense products run as tiled kernels, against the same network with plain products.

  Both programs compute, from node features `x`, an edge list, weights `W1`, `W2` and biases `b1`, `b2`: the edge list with a
  self-loop per node; each node's in-degree `deg`; `dis = rsqrt deg` where `deg > 0`, else `0`; the edge weight
  `dis[source] · dis[target]`; then twice "multiply the node rows by a weight matrix, gather the rows at the edges' sources,
  scale by the edge weights, sum into the edges' targets, add the bias", with a rectification after the first round and a
  row-wise log-softmax after the second. The reference multiplies by `W1` and `W2` with one dot product each. The kernel
  multiplies in row blocks (ten blocks of 10000 rows, then five of 20000), each block's operands first narrowed to a
  16-bit float format and the product accumulated from zero in the 32-bit format.

  On the extended reals a change of float format is the identity and a product accumulated from zero is the plain sum over
  the contracted index, and a row of a matrix product depends on the same row of the left operand only; so each kernel
  region leaves in its output array exactly the plain product of its whole operands (Proof/Region0.lean, Region1.lean).
  Every other operation of the two programs is the same operation on the same operands, so the two results are the same
  function of the arguments (Proof/KernelValue.lean). No finiteness of the inputs is used: the precondition is never opened.
  The idealization rewrote no operation, so it is the program's own text read on the extended reals.
-/
import proofs.«143414_j77120432767032_1_alg».proof.Defs
import proofs.«143414_j77120432767032_1_alg».proof.Proof.Gen.Kernel
import proofs.«143414_j77120432767032_1_alg».proof.Proof.Gen.Kernel.Skeleton
import proofs.«143414_j77120432767032_1_alg».proof.Proof.Gen.Kernel.Launch
import proofs.«143414_j77120432767032_1_alg».proof.Proof.Gen.Kernel.Points
import proofs.«143414_j77120432767032_1_alg».proof.Proof.Gen.Kernel.Frame
import proofs.«143414_j77120432767032_1_alg».proof.Proof.Gen.KernelIdeal
import proofs.«143414_j77120432767032_1_alg».proof.Proof.Gen.KernelIdeal.Skeleton
import proofs.«143414_j77120432767032_1_alg».proof.Proof.Gen.KernelIdeal.Launch
import proofs.«143414_j77120432767032_1_alg».proof.Proof.Gen.KernelIdeal.Points
import proofs.«143414_j77120432767032_1_alg».proof.Proof.Gen.KernelIdeal.Frame
import proofs.«143414_j77120432767032_1_alg».proof.Proof.Gen.ReferenceIdeal
import proofs.«143414_j77120432767032_1_alg».proof.Proof.Gen.Pre_finite_inputs
import proofs.«143414_j77120432767032_1_alg».proof.Proof.RefRun
import proofs.«143414_j77120432767032_1_alg».proof.Proof.KernelRun
import proofs.«143414_j77120432767032_1_alg».proof.Proof.KernelValue
import Idealize.ShloMosaic.Adequacy
import Idealize.ShloMosaic.Init

noncomputable section

namespace Cert.Proof

open Idealize.ShloMosaic Idealize.ShloMosaic.TcCoe Idealize.SL.Sem

/-- The kernel program as printed runs, and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing, so there is nothing to preserve. -/
theorem preserves : Cert.preserves_Kernel_KernelIdeal := trivial

/-- From memories that agree on the six arguments both programs end with the same result: the reference's fold of its
    host operations from its launch contents, which is also what the kernel program's last boundary holds. -/
theorem algebraic : Cert.algebraic_KernelIdeal_ReferenceIdeal := by
  intro m ρ m' ρ' _ hagree
  refine ⟨fun c => StableHlo.after (Cert.ReferenceIdeal.ValueP.ops (F := Ideal)) (StableHlo.launchContents m' c)
      (Proc.devRef .tc Cert.ReferenceIdeal.main_v65), ?_, Cert.ReferenceIdeal.ValueP.run (F := Ideal) m' ρ'⟩
  refine (θ_run Cert.KernelIdeal.defs _ _).mono (fun r h c => ⟨(h c).1.trans ?_, (h c).2⟩)
    (Cert.KernelIdeal.Whole.run (F := Ideal) m ρ)
  rw [Cert.KernelIdeal.Whole.last_boundary]
  exact Cert.KernelIdeal.Whole.host_only_value _ (StableHlo.launchContents m' c)
    (hagree c).1.symm (hagree c).2.1.symm (hagree c).2.2.1.symm (hagree c).2.2.2.1.symm
    (hagree c).2.2.2.2.1.symm (hagree c).2.2.2.2.2.symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
